-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S2048x512 : Shape := ⟨2, ![2048, 512]⟩
abbrev S512 : Shape := ⟨1, ![512]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_cst_10 : FVec F S_ .f32 := constant S_ .f32 0x00000000#32
  let main_v29 : FVec F S512 .f32 := broadcastInDim S512 ![] bcast_S_S512 main_cst_10
  let main_v30 : IVec S512 1 := cmpf .oge main_arg5 main_v29
  let main_c_11 : IVec S_ 1 := constantI S_ 1 1#1
  let main_v31 : IVec S_ 1 := (fun x v => Host.reduce IntOp.andi x v reducesTo_S512_S_d0 h_S_) main_v30 main_c_11
  let main_v32 : IVec S_ 1 := andi main_v28 main_v31
  main_v32

def fn {F : FTy → Type} [FloatOps F] (main_arg0 : FVec F S32768x2048 .f32) (main_arg1 : FVec F S2048x512 .f32) (main_arg2 : FVec F S512 .f32) (main_arg3 : FVec F S512 .f32) (main_arg4 : FVec F S512 .f32) (main_arg5 : FVec F S512 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S32768x2048 : Shape := ⟨2, ![32768, 2048]⟩
abbrev S2048x512 : Shape := ⟨2, ![2048, 512]⟩
abbrev S512 : Shape := ⟨1, ![512]⟩
abbrev S_ : Shape := ⟨0, ![]⟩
abbrev S1x512 : Shape := ⟨2, ![1, 512]⟩
abbrev S2x512 : Shape := ⟨2, ![2, 512]⟩
abbrev S32768x512 : Shape := ⟨2, ![32768, 512]⟩
abbrev S1024x2048 : Shape := ⟨2, ![1024, 2048]⟩
abbrev S1024x512 : Shape := ⟨2, ![1024, 512]⟩
abbrev S512x512 : Shape := ⟨2, ![512, 512]⟩

abbrev nBuf : Space → Nat
  | .hbm => 26
  | .vmem => 7
  | .smem => 0
  | _ => 0

abbrev bufTy : (tb : Table) → Fin (tcTables nBuf tb) → BufTy
  | .hbm, ⟨0, _⟩ => ⟨S32768x2048, .f32⟩
  | .hbm, ⟨1, _⟩ => ⟨S2048x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S_, .f32⟩
  | .hbm, ⟨7, _⟩ => ⟨S2048x512, .f32⟩
  | .hbm, ⟨8, _⟩ => ⟨S2048x512, .i1⟩
  | .hbm, ⟨9, _⟩ => ⟨S_, .f32⟩
  | .hbm, ⟨10, _⟩ => ⟨S_, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S2048x512, .bf16⟩
  | .hbm, ⟨15, _⟩ => ⟨S_, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S512, .f32⟩
  | .hbm, ⟨20, _⟩ => ⟨S512, .f32⟩
  | .hbm, ⟨21, _⟩ => ⟨S512, .f32⟩
  | .hbm, ⟨22, _⟩ => ⟨S1x512, .f32⟩
  | .hbm, ⟨23, _⟩ => ⟨S1x512, .f32⟩
  | .hbm, ⟨24, _⟩ => ⟨S2x512, .f32⟩
  | .hbm, ⟨25, _⟩ => ⟨S32768x512, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v2 : Ref sig .tc := ⟨.hbm, 13, rfl⟩
abbrev main_v3 : Ref sig .tc := ⟨.hbm, 14, rfl⟩
abbrev main_cst_2 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c512_i32 : BitVec 32 := 512#32
  let v4 : BitVec 32 := Scalar.muli c0_i32 c512_i32
  v4
def k0_off1 (c0_i32 : BitVec 32) : Fin 2 → Nat :=
  let c0_1 : Index := 0#32
  let c512_i32 : BitVec 32 := 512#32
  let v4 : BitVec 32 := Scalar.muli c0_i32 c512_i32
  let v5 : BitVec 32 := v4
  let v6 : Index := Scalar.indexCast v5
  ![0, v6.toNat]
def k0_off2 (c0_i32 : BitVec 32) : Fin 2 → Nat :=
  let c512_i32 : BitVec 32 := 512#32
  let v4 : BitVec 32 := Scalar.muli c0_i32 c512_i32
  let v5 : BitVec 32 := v4
  let v14 : Index := Scalar.indexCast v5
  let c0_5 : Index := 0#32
  ![v14.toNat, 0]
def k0_mult2 : BitVec 32 :=
  let c1_i32 : BitVec 32 := 1#32
  let c512_i32_11 : BitVec 32 := 512#32
  let v23 : BitVec 32 := Scalar.muli c1_i32 c512_i32_11
  v23
def k0_mult3 : BitVec 32 :=
  let c2_i32 : BitVec 32 := 2#32
  let c512_i32_22 : BitVec 32 := 512#32
  let v42 : BitVec 32 := Scalar.muli c2_i32 c512_i32_22
  v42
def k0_mult4 : BitVec 32 :=
  let c3_i32 : BitVec 32 := 3#32
  let c512_i32_33 : BitVec 32 := 512#32
  let v61 : BitVec 32 := Scalar.muli c3_i32 c512_i32_33
  v61
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S2048x512 : S_.BroadcastsInDim S2048x512 (![] : Fin 0 → Fin S2048x512.rank)
  bitsLt_bf16_f32 : FTy.bits .bf16 < FTy.bits .f32
  bcast_S_S512 : S_.BroadcastsInDim S512 (![] : Fin 0 → Fin S512.rank)
  bcast_S512_S1x512_1 : S512.BroadcastsInDim S1x512 (![1] : Fin 1 → Fin S1x512.rank)
  concatenates_S1x512_S1x512_S2x512_d0 : Shape.Concatenates [S1x512, S1x512] S2x512 0
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  h_S512x512 : 0 < S512x512.numel
  shapeCasts_S512x512_S512x512 : S512x512.ShapeCasts S512x512
  inb_S2x512_S1x512_0_0 : ∀ a, (![0, 0] : Fin 2 → Nat) a + S1x512.size a ≤ S2x512.size a
  h_S1x512 : 0 < S1x512.numel
  shapeCasts_S1x512_S1x512 : S1x512.ShapeCasts S1x512
  inb_S2x512_S1x512_1_0 : ∀ a, (![1, 0] : Fin 2 → Nat) a + S1x512.size a ≤ S2x512.size a
  broadcasts_S1x512_S1024x512 : S1x512.Broadcasts S1024x512
  dot_S1024x512_S512x512_S1024x512_1_0_0_1_n_n_wf : DotDims.WF S1024x512 S512x512 S1024x512 [1] [0] [0] [1] [] []
  hrank0 : 0 < grid0.rank
  k0_mult1_dvd : 128 ∣ k0_mult1.toNat
  k0_off1_inb : ∀ (r : Fin 4), ∀ a, (k0_off1 (BitVec.ofNat 32 r.val)) a + S1024x512.size a ≤ S1024x2048.size a
  k0_off2_inb : ∀ (r : Fin 4), ∀ a, (k0_off2 (BitVec.ofNat 32 r.val)) a + S512x512.size a ≤ S2048x512.size a
  k0_mult2_dvd : 128 ∣ k0_mult2.toNat
  k0_mult3_dvd : 128 ∣ k0_mult3.toNat
  k0_mult4_dvd : 128 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S32768x2048.size a
  hwx0_0 : ∀ i : grid0.Coords, EltTy.bits .f32 = 32 ∨ (Rect.block (s := S32768x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .bf16 = 32 ∨ (Rect.block (s := S2048x512) S2048x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x512.size a ≤ S2x512.size a
  hwx0_2 : ∀ i : grid0.Coords, EltTy.bits .f32 = 32 ∨ (Rect.block (s := S2x512) S2x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S32768x512.size a
  hwx0_3 : ∀ i : grid0.Coords, EltTy.bits .f32 = 32 ∨ (Rect.block (s := S32768x512) S1024x512.size (cc0_transform_3 i) (hinb0_3 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x2048 : Shape := ⟨2, ![32768, 2048]⟩
abbrev S2048x512 : Shape := ⟨2, ![2048, 512]⟩
abbrev S512 : Shape := ⟨1, ![512]⟩
abbrev S_ : Shape := ⟨0, ![]⟩
abbrev S32768x512 : Shape := ⟨2, ![32768, 512]⟩
abbrev S1x512 : Shape := ⟨2, ![1, 512]⟩

abbrev nBuf : Space → Nat
  | .hbm => 41
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S_, .f32⟩
  | .hbm, ⟨7, _⟩ => ⟨S32768x2048, .f32⟩
  | .hbm, ⟨8, _⟩ => ⟨S32768x2048, .i1⟩
  | .hbm, ⟨9, _⟩ => ⟨S_, .f32⟩
  | .hbm, ⟨10, _⟩ => ⟨S_, .f32⟩
  | .hbm, ⟨11, _⟩ => ⟨S32768x2048, .f32⟩
  | .hbm, ⟨12, _⟩ => ⟨S32768x2048, .f32⟩
  | .hbm, ⟨13, _⟩ => ⟨S32768x2048, .f32⟩
  | .hbm, ⟨14, _⟩ => ⟨S32768x2048, .f32⟩
  | .hbm, ⟨15, _⟩ => ⟨S_, .f32⟩
  | .hbm, ⟨16, _⟩ => ⟨S2048x512, .f32⟩
  | .hbm, ⟨17, _⟩ => ⟨S2048x512, .i1⟩
  | .hbm, ⟨18, _⟩ => ⟨S_, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S2048x512, .f32⟩
  | .hbm, ⟨23, _⟩ => ⟨S2048x512, .f32⟩
  | .hbm, ⟨24, _⟩ => ⟨S32768x512, .f32⟩
  | .hbm, ⟨25, _⟩ => ⟨S1x512, .f32⟩
  | .hbm, ⟨26, _⟩ => ⟨S32768x512, .f32⟩
  | .hbm, ⟨27, _⟩ => ⟨S32768x512, .f32⟩
  | .hbm, ⟨28, _⟩ => ⟨S_, .f32⟩
  | .hbm, ⟨29, _⟩ => ⟨S512, .f32⟩
  | .hbm, ⟨30, _⟩ => ⟨S512, .f32⟩
  | .hbm, ⟨31, _⟩ => ⟨S512, .f32⟩
  | .hbm, ⟨32, _⟩ => ⟨S1x512, .f32⟩
  | .hbm, ⟨33, _⟩ => ⟨S32768x512, .f32⟩
  | .hbm, ⟨34, _⟩ => ⟨S32768x512, .f32⟩
  | .hbm, ⟨35, _⟩ => ⟨S1x512, .f32⟩
  | .hbm, ⟨36, _⟩ => ⟨S32768x512, .f32⟩
  | .hbm, ⟨37, _⟩ => ⟨S32768x512, .f32⟩
  | .hbm, ⟨38, _⟩ => ⟨S1x512, .f32⟩
  | .hbm, ⟨39, _⟩ => ⟨S32768x512, .f32⟩
  | .hbm, ⟨40, _⟩ => ⟨S32768x512, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v2 : Ref sig .tc := ⟨.hbm, 13, rfl⟩
abbrev main_v3 : Ref sig .tc := ⟨.hbm, 14, rfl⟩
abbrev main_cst_2 : Ref sig .tc := ⟨.hbm, 15, rfl⟩
abbrev main_v4 : Ref sig .tc := ⟨.hbm, 16, rfl⟩
abbrev main_v5 : Ref sig .tc := ⟨.hbm, 17, rfl⟩
abbrev main_cst_3 : Ref sig .tc := ⟨.hbm, 18, rfl⟩
abbrev main_cst_4 : Ref sig .tc := ⟨.hbm, 19, rfl⟩
abbrev main_call1_v0 : Ref sig .tc := ⟨.hbm, 20, rfl⟩
abbrev main_call1_v1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_5 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]

class Facts₀ : Prop where
  bcast_S_S32768x2048 : S_.BroadcastsInDim S32768x2048 (![] : Fin 0 → Fin S32768x2048.rank)
  bcast_S_S2048x512 : S_.BroadcastsInDim S2048x512 (![] : Fin 0 → Fin S2048x512.rank)
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S512 : S_.BroadcastsInDim S512 (![] : Fin 0 → Fin S512.rank)
  dot_S32768x2048_S2048x512_S32768x512_1_0_0_1_n_n_wf : DotDims.WF S32768x2048 S2048x512 S32768x512 [1] [0] [0] [1] [] []

variable [Facts₀]

def dot_S32768x2048_S2048x512_S32768x512_1_0_0_1_n_n : DotDims S32768x2048 S2048x512 S32768x512 where
  lhsContracting := [1]
  rhsContracting := [0]
  lhsNonContracting := [0]
  rhsNonContracting := [1]
  lhsBatch := []
  rhsBatch := []
  wf := dot_S32768x2048_S2048x512_S32768x512_1_0_0_1_n_n_wf

class Facts : Prop extends Facts₀ where

variable [Facts]
-- ==== Proof.LibFinite.lean ====
/-
  Extended reals that are real numbers, and the operations that keep them so.
-/
import Idealize.ShloMosaic.PureOps.Ideal

noncomputable section

namespace Cert.LibFinite

open Idealize.ShloMosaic

/-- An extended real that is a real number (neither infinity). -/
def IsFin (x : EReal) : Prop := ∃ y : ℝ, x = (y : EReal)

theorem isFin_coe (y : ℝ) : IsFin (y : EReal) := ⟨y, rfl⟩

/-- Zero is the real number zero. -/
theorem isFin_zero : IsFin (0 : EReal) := ⟨0, rfl⟩

/-- The sum of two reals is the real sum: the coercion is additive. -/
theorem IsFin.add {x y : EReal} (hx : IsFin x) (hy : IsFin y) : IsFin (x + y) := by
  obtain ⟨a, rfl⟩ := hx
  obtain ⟨b, rfl⟩ := hy
  exact ⟨a + b, (EReal.coe_add a b).symm⟩

/-- The difference of two reals is the real difference. -/
theorem IsFin.sub {x y : EReal} (hx : IsFin x) (hy : IsFin y) : IsFin (x - y) := by
  obtain ⟨a, rfl⟩ := hx
  obtain ⟨b, rfl⟩ := hy
  exact ⟨a - b, (EReal.coe_sub a b).symm⟩

/-- The product of two reals is the real product. -/
theorem IsFin.mul {x y : EReal} (hx : IsFin x) (hy : IsFin y) : IsFin (x * y) := by
  obtain ⟨a, rfl⟩ := hx
  obtain ⟨b, rfl⟩ := hy
  exact ⟨a * b, (EReal.coe_mul a b).symm⟩

/-- The larger of two reals is one of them. -/
theorem IsFin.max {x y : EReal} (hx : IsFin x) (hy : IsFin y) : IsFin (max x y) := by
  rcases max_choice x y with h | h
  · rw [h]; exact hx
  · rw [h]; exact hy

/-- A real divided by a nonzero real is the real quotient: off zero the quotient is the product with the
    inverse, and the inverse of a real is the real inverse. -/
theorem IsFin.div {x y : EReal} (hx : IsFin x) (hy : IsFin y) (h0 : y ≠ 0) : IsFin (Ideal.div x y) := by
  obtain ⟨a, rfl⟩ := hx
  obtain ⟨b, rfl⟩ := hy
  refine ⟨a * b⁻¹, ?_⟩
  rw [Ideal.div, if_neg h0, ← EReal.coe_inv, ← EReal.coe_mul]

/-- A finite sum of reals is a real, by induction on the index set. -/
theorem IsFin.sum {ι : Type} (s : Finset ι) (f : ι → EReal) (h : ∀ i ∈ s, IsFin (f i)) :
    IsFin (∑ i ∈ s, f i) := by
  classical
  induction s using Finset.induction_on with
  | empty => simpa using isFin_zero
  | insert a s ha ih =>
    rw [Finset.sum_insert ha]
    exact (h a (Finset.mem_insert_self a s)).add (ih fun i hi => h i (Finset.mem_insert_of_mem hi))

/-- The pattern of `+0.0` denotes `0`. -/
theorem ofBits_zero : Ideal.ofBits .f32 0x00000000#32 = (0 : EReal) := by
  simp [Ideal.ofBits, Ideal.ieee]

/-- The pattern of `1.0` (exponent field `127`, zero fraction) denotes `2^23 · 2^(127 - 127 - 23) = 1`. -/
theorem ofBits_one : Ideal.ofBits .f32 0x3F800000#32 = ((1 : ℝ) : EReal) := by
  simp [Ideal.ofBits, Ideal.ieee, -EReal.coe_mul]; norm_num

/-- The pattern `0x47C35000` (exponent field `143`, fraction `0x435000`) denotes
    `(2^23 + 0x435000) · 2^(143 - 127 - 23) = 12800000 / 128 = 100000`. -/
theorem ofBits_1e5 : Ideal.ofBits .f32 0x47C35000#32 = ((100000 : ℝ) : EReal) := by
  simp [Ideal.ofBits, Ideal.ieee, -EReal.coe_mul]; norm_num

/-- The pattern `0x3727C5AC` has exponent field `110`, neither all ones nor zero: a normal number, a real. -/
theorem isFin_ofBits_eps : IsFin (Ideal.ofBits .f32 0x3727C5AC#32) := by
  simp [Ideal.ofBits, Ideal.ieee, -EReal.coe_mul]
  exact isFin_coe _

/-- A maximum against `1` is at least `1`, so it is not `0`. -/
theorem max_one_ne_zero (x : EReal) : max x (Ideal.ofBits .f32 0x3F800000#32) ≠ 0 := by
  rw [ofBits_one]
  have h : ((1 : ℝ) : EReal) ≤ max x ((1 : ℝ) : EReal) := le_max_right _ _
  have h0 : (0 : EReal) < ((1 : ℝ) : EReal) := by exact_mod_cast zero_lt_one
  exact (lt_of_lt_of_le h0 h).ne'

end Cert.LibFinite

end
-- ==== Proof.BinSpec.lean ====
/-
  The layer, with no program in sight: a dense layer on binarized values followed by a batch normalization at
  inference, over the extended reals.

  Binarization sends a value to +1 where it is at least zero and to -1 elsewhere. Entry (r, j) of the layer is
  built from the inner product  D r j = ∑ k, sg (X r k) · sg (W k j)  of a binarized input row and a binarized weight
  column, the bias b, the moving mean μ and variance v of the normalization, its shift β, and the scale
  s j = (v j + ε)^(-1/2):

      folded   :  D r j · s j + ((b j - μ j) · s j + β j)        (scale and shift folded into one affine map)
      unfolded :  ((D r j + b j) - μ j) · s j + β j              (bias, centring, scaling, shift in turn)

  On the extended reals the two differ when s j is infinite (v j + ε = 0) or junk (v j + ε < 0): multiplying by an
  infinity does not distribute over a sum of opposite signs. Where b, μ, β, v are real numbers and v j ≥ 0, the sum
  v j + ε is a positive real, s j is a real, D r j is a finite sum of products of ±1, and the identity is the
  distributive law of the reals.
-/
import Idealize.ShloMosaic.PureOps.Ideal
import Idealize.ShloMosaic.PureOps.Ideal.Laws
import Idealize.ShloMosaic.Lib.ValueIdx
import proofs.«111143_j84585085927956_2_alg».proof.Proof.LibFinite

noncomputable section

open scoped BigOperators

namespace Cert.BinDense

open Idealize.ShloMosaic Idealize.ShloMosaic.ValueIdx Cert.LibFinite

/-- The input's, the weight's, a per-column vector's and the result's index shapes. -/
abbrev SX : Shape := ⟨2, ![32768, 2048]⟩
abbrev SW : Shape := ⟨2, ![2048, 512]⟩
abbrev SV : Shape := ⟨1, ![512]⟩
abbrev SO : Shape := ⟨2, ![32768, 512]⟩

/-- Binarization: the pattern of 1.0 where the value is at least the pattern of +0.0, the pattern of -1.0 elsewhere. -/
def sg (x : Ideal .f32) : Ideal .f32 :=
  Scalar.select (FloatOps.cmpf .oge x (Ideal.ofBits .f32 0x00000000#32))
    (Ideal.ofBits .f32 0x3F800000#32) (Ideal.ofBits .f32 0xBF800000#32)

/-- A binarized value is the real number 1 or the real number -1. -/
theorem sg_isFin (x : Ideal .f32) : IsFin (sg x) := by
  unfold sg Scalar.select
  split
  · exact ⟨1, IdealRules.sign_bit.ideal_onePat .f32⟩
  · exact ⟨-1, IdealRules.sign_bit.ideal_negOnePat .f32⟩

/-- The inner product of binarized input row `r` and binarized weight column `j`. -/
def bdot (X : SX.Idx → EReal) (W : SW.Idx → EReal) (r : Fin 32768) (j : Fin 512) : EReal :=
  ∑ k : Fin 2048, sg (X (ix2 r k)) * sg (W (ix2 k j))

/-- It is a real number: a finite sum of products of ±1. -/
theorem bdot_isFin (X : SX.Idx → EReal) (W : SW.Idx → EReal) (r : Fin 32768) (j : Fin 512) : IsFin (bdot X W r j) :=
  IsFin.sum _ _ fun _ _ => (sg_isFin _).mul (sg_isFin _)

/-- The normalization's ε, as its pattern. -/
def eps : EReal := Ideal.ofBits .f32 0x3A83126F#32

/-- ε is a positive real: exponent field 117, a normal number with the sign bit clear. -/
theorem eps_pos : ∃ e : ℝ, 0 < e ∧ eps = (e : EReal) := by
  unfold eps
  simp [Ideal.ofBits, Ideal.ieee, -EReal.coe_mul]

/-- The scale of column `j`: the reciprocal square root of the variance plus ε. -/
def scale (v : SV.Idx → EReal) (j : Fin 512) : EReal := Ideal.rsqrt (v (ix1 j) + eps)

/-- Over a real, non-negative variance the scale is a real number: v + ε is a positive real. -/
theorem scale_isFin (v : SV.Idx → EReal) (j : Fin 512) (hv : IsFin (v (ix1 j))) (h0 : 0 ≤ v (ix1 j)) :
    IsFin (scale v j) := by
  unfold scale
  obtain ⟨a, ha⟩ := hv
  obtain ⟨e, he, hE⟩ := eps_pos
  rw [ha] at h0 ⊢
  rw [hE, ← EReal.coe_add, Ideal.rsqrt_coe]
  have ha0 : 0 ≤ a := EReal.coe_nonneg.mp h0
  rw [if_neg (by linarith), if_neg (by linarith)]
  exact isFin_coe _

/-- The layer with the scale and shift folded into one affine map of the inner product. -/
def folded (X : SX.Idx → EReal) (W : SW.Idx → EReal) (b β μ v : SV.Idx → EReal) : SO.Idx → EReal := fun i =>
  bdot X W (i 0) (i 1) * scale v (i 1) + ((b (ix1 (i 1)) - μ (ix1 (i 1))) * scale v (i 1) + β (ix1 (i 1)))

/-- The layer as bias, centring, scaling and shift in turn. -/
def unfolded (X : SX.Idx → EReal) (W : SW.Idx → EReal) (b β μ v : SV.Idx → EReal) : SO.Idx → EReal := fun i =>
  ((bdot X W (i 0) (i 1) + b (ix1 (i 1))) - μ (ix1 (i 1))) * scale v (i 1) + β (ix1 (i 1))

/-- Over the reals the folded affine map is the unfolded one: distributivity. -/
theorem affine_real (d s b m β : ℝ) :
    (d : EReal) * s + (((b : EReal) - m) * s + β) = (((d : EReal) + b) - m) * s + β := by
  norm_cast
  ring

/-- Where the per-column parameters are real numbers and the variance is non-negative, the two arrangements of the
    layer are one function. -/
theorem folded_eq_unfolded (X : SX.Idx → EReal) (W : SW.Idx → EReal) (b β μ v : SV.Idx → EReal)
    (hb : ∀ j, IsFin (b j)) (hβ : ∀ j, IsFin (β j)) (hμ : ∀ j, IsFin (μ j)) (hv : ∀ j, IsFin (v j))
    (h0 : ∀ j, 0 ≤ v j) : folded X W b β μ v = unfolded X W b β μ v := by
  funext i
  unfold folded unfolded
  obtain ⟨d, hd⟩ := bdot_isFin X W (i 0) (i 1)
  obtain ⟨s, hs⟩ := scale_isFin v (i 1) (hv _) (h0 _)
  obtain ⟨b', hb'⟩ := hb (ix1 (i 1))
  obtain ⟨m', hm'⟩ := hμ (ix1 (i 1))
  obtain ⟨β', hβ'⟩ := hβ (ix1 (i 1))
  rw [hd, hs, hb', hm', hβ']
  exact affine_real d s b' m' β'

/-- A sum over 2048 consecutive indices, taken as four consecutive runs of 512 added to zero one after the other, is the
    whole sum: addition on the extended reals is commutative and associative, infinities included. -/
theorem sum_four_runs {M : Type*} [AddCommMonoid M] (f : Fin 2048 → M) :
    (((0 + ∑ k : Fin 512, f ⟨k.val, by omega⟩) + ∑ k : Fin 512, f ⟨512 + k.val, by omega⟩)
        + ∑ k : Fin 512, f ⟨1024 + k.val, by omega⟩) + ∑ k : Fin 512, f ⟨1536 + k.val, by omega⟩
      = ∑ k : Fin 2048, f k := by
  rw [zero_add]
  show _ = ∑ k : Fin (512 + 512 + 512 + 512), f k
  rw [Fin.sum_univ_add, Fin.sum_univ_add, Fin.sum_univ_add]
  rfl

end Cert.BinDense

end
-- ==== Proof.LibRowOps.lean ====
/-
  General reads at an index, at the ideal values, used by the row-local stages of a network: a matrix product
  accumulated into zero, a column broadcast across the columns, and the select that spells the exponential linear unit.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StackMember

noncomputable section

open scoped BigOperators

namespace Cert.RowLib

open Idealize.ShloMosaic Idealize.ShloMosaic.ValueIdx

/-- A dot's dimension numbers that contract the left operand's columns with the right operand's rows, with no batch
    axis, are the plain m×k by k×n product's. -/
theorem dotDims_eq_plain {m k n : Nat} (D : DotDims ⟨2, ![m, k]⟩ ⟨2, ![k, n]⟩ ⟨2, ![m, n]⟩)
    (hlc : D.lhsContracting = [1]) (hrc : D.rhsContracting = [0]) (hln : D.lhsNonContracting = [0])
    (hrn : D.rhsNonContracting = [1]) (hlb : D.lhsBatch = []) (hrb : D.rhsBatch = []) : D = DotDims.plain m k n := by
  obtain ⟨lc, rc, ln, rn, lb, rb, wf⟩ := D
  dsimp only at hlc hrc hln hrn hlb hrb
  subst hlc hrc hln hrn hlb hrb
  rfl

/-- The plain product of an m×k by a k×n matrix accumulated into the zero splat, read at (a, b), is the sum over the
    contracted coordinate of the products of the entries: row a of the left operand against column b of the right. -/
theorem matmul_plain_zero_ix2 {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- An [a, 1] array broadcast to [a, b] reads, at (p, c), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A select on "h is above z" is the `if` on the order of the extended reals. -/
theorem select_cmpf_ogt {α : Type} (h z : Ideal .f32) (A B : α) :
    Scalar.select (FloatOps.cmpf .ogt h z) A B = if z < h then A else B := by
  show Scalar.select (Ideal.cmp .ogt h z) A B = _
  unfold Ideal.cmp Scalar.select
  by_cases hh : z < h <;> simp [hh]

end Cert.RowLib

end
-- ==== Proof.BinBody.lean ====
/-
  What one grid point's body leaves in its output block, as a function of the three blocks it is given.

  The body clears a 1024×512 accumulator, then four times over adds to it the product of a 1024×512 run of columns of
  the input block, binarized, with the matching 512 rows of the (already binarized) weight; at the end it multiplies the
  accumulator by row 0 of the 2×512 parameter block and adds row 1. Read at entry (p, q) of the block that is

      (∑ k < 2048, sg (x p k) · w k q) · s 0 q + s 1 q

  — the four partial sums over 512 consecutive columns, added to zero one after the other, are the sum over all 2048.
-/
import proofs.«111143_j84585085927956_2_alg».proof.Proof.Gen.KernelIdeal.Frame
import Idealize.ShloMosaic.Lib.Pipeline.Value
import Idealize.ShloMosaic.Lib.ValueLayout
import Idealize.ShloMosaic.Lib.Tactic
import proofs.«111143_j84585085927956_2_alg».proof.Proof.BinSpec
import proofs.«111143_j84585085927956_2_alg».proof.Proof.LibRowOps

noncomputable section

open scoped BigOperators
open Idealize.ShloMosaic Idealize.ShloMosaic.TcCoe Idealize.SL.Sem

namespace Cert.KernelIdeal.Body

open Cert.KernelIdeal Cert.KernelIdeal.Gen Idealize.ShloMosaic.ValueIdx Cert.BinDense

theorem hz : (![0, 0] : Fin 2 → Nat) = fun _ => 0 := funext fun a => by fin_cases a <;> rfl

/-- A load of a whole buffer, after stores the LAST of which wrote the whole buffer, reads that store's payload,
    whatever the earlier stores were. -/
theorem readCov_cons_whole {sig : RefSig} {κ : Kind} {sp : Space} {S : Shape} {e : EltTy} {Val : EltTy → Type}
    [∀ e, Nonempty (Val e)] (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩),
    View.canon_cons_unit_zero rfl, View.ld_unit_zero rfl]

section AnyValues

variable {F : FTy → Type} [FloatOps F]

/-- The accumulator after the clearing store and the four accumulating stores, over the input block `x0` and the
    weight block `x1`: each step reads 512 columns of `x0` and the matching 512 rows of `x1`. -/
def acc (x0 : Vec F S1024x2048 .f32) (x1 : Vec F S2048x512 .bf16) : FVec F S1024x512 .f32 :=
  k0_pay1
    (k0_pay8 (View.ld x0 (Rect.unit ![0, 1536] S1024x512.size (by decide))))
    (View.ld x1 (Rect.unit ![1536, 0] S512x512.size (by decide)))
    (k0_pay7
      (View.ld x0 (Rect.unit ![0, 1024] S1024x512.size (by decide)))
      (View.ld x1 (Rect.unit ![1024, 0] S512x512.size (by decide)))
      (k0_pay6
        (k0_pay5 (View.ld x0 (Rect.unit ![0, 512] S1024x512.size (by decide))))
        (View.ld x1 (Rect.unit ![512, 0] S512x512.size (by decide)))
        (k0_pay4
          (View.ld x0 (Rect.unit ![0, 0] S1024x512.size (by decide)))
          (View.ld x1 (Rect.unit ![0, 0] S512x512.size (by decide)))
          k0_pay3)))

/-- What the body leaves in the output block: the accumulator times row 0 of the parameter block plus row 1. Every
    read-back of the accumulator is a whole-buffer load after a whole-buffer store. -/
theorem out_A (c : Dev nD) (i : grid0.Coords) (arg1 : Memref sig .tc .vmem S1024x2048 .f32) (harg1 : arg1.IsWhole)
    (arg2 : Memref sig .tc .vmem S2048x512 .bf16) (harg2 : arg2.IsWhole) (arg3 : Memref sig .tc .vmem S2x512 .f32)
    (harg3 : arg3.IsWhole) (arg4 : Memref sig .tc .vmem S1024x512 .f32) (harg4 : arg4.IsWhole)
    (arg5 : Memref sig .tc .vmem S1024x512 .f32) (harg5 : arg5.IsWhole)
    (x0 : Vec F S1024x2048 .f32) (x1 : Vec F S2048x512 .bf16) (x2 : Vec F S2x512 .f32) :
    out0_A_3 c i arg1 harg1 arg2 harg2 arg3 harg3 arg4 harg4 arg5 harg5 x0 x1 x2
      = k0_pay2 (View.ld x2 (Rect.unit ![0, 0] ![1, 512] inb_S2x512_S1x512_0_0))
          (View.ld x2 (Rect.unit ![1, 0] ![1, 512] inb_S2x512_S1x512_1_0)) (acc x0 x1) := by
  unfold out0_A_3
  rw [View.read_writes_eq_canon _ _ _ (cover0_A_3 c i arg1 harg1 arg2 harg2 arg3 harg3 arg4 harg4 arg5 harg5 x0 x1 x2)]
  unfold kernelRun0_A
  dsimp only
  sl_unfold_words
  rw [View.canon_unit_zero hz]
  rw [readCov_cons_whole (S := S1024x512) _ hz, readCov_cons_whole (S := S1024x512) _ hz,
    readCov_cons_whole (S := S1024x512) _ hz, readCov_cons_whole (S := S1024x512) _ hz,
    readCov_cons_whole (S := S1024x512) _ hz]
  simp only [View.readAt_eq_ld, harg1.read_unread, harg2.read_unread, harg3.read_unread]
  rfl

end AnyValues

/-! ## At the extended reals, entry by entry -/

/-- One 1024×512 by 512×512 product into the zero accumulator, read at (p, q): the sum over the 512 contracted
    coordinates of the products of the entries. -/
theorem mm_apply (A : FVec Ideal S1024x512 .bf16) (B : FVec Ideal S512x512 .bf16) (p : Fin 1024) (q : Fin 512) :
    matmul dot_S1024x512_S512x512_S1024x512_1_0_0_1_n_n none A B (constant (F := Ideal) S1024x512 .f32 0x00000000#32) (ix2 p q)
      = ∑ k : Fin 512, A (ix2 p k) * B (ix2 k q) := by
  rw [Cert.RowLib.dotDims_eq_plain dot_S1024x512_S512x512_S1024x512_1_0_0_1_n_n rfl rfl rfl rfl rfl rfl]
  exact Cert.RowLib.matmul_plain_zero_ix2 none A B p q

/-- The clearing store's payload is zero everywhere. -/
theorem pay3_apply (p : Fin 1024) (q : Fin 512) : k0_pay3 (F := Ideal) (ix2 p q) = 0 := by
  unfold k0_pay3
  rw [shapeCast_self]
  exact Ideal.ofBits_zero_f32

/-- An accumulating step that binarizes its columns itself (the first and the third). -/
theorem pay4_apply (v7 : Vec Ideal S1024x512 .f32) (v15 : Vec Ideal S512x512 .bf16) (v17 : Vec Ideal S1024x512 .f32)
    (p : Fin 1024) (q : Fin 512) :
    k0_pay4 (F := Ideal) v7 v15 v17 (ix2 p q) = v17 (ix2 p q) + ∑ k : Fin 512, sg (v7 (ix2 p k)) * v15 (ix2 k q) := by
  unfold k0_pay4
  simp only [shapeCast_self]
  exact congrArg (v17 (ix2 p q) + ·) (mm_apply _ _ p q)

theorem pay7_apply (v45 : Vec Ideal S1024x512 .f32) (v53 : Vec Ideal S512x512 .bf16) (v55 : Vec Ideal S1024x512 .f32)
    (p : Fin 1024) (q : Fin 512) :
    k0_pay7 (F := Ideal) v45 v53 v55 (ix2 p q) = v55 (ix2 p q) + ∑ k : Fin 512, sg (v45 (ix2 p k)) * v53 (ix2 k q) := by
  unfold k0_pay7
  simp only [shapeCast_self]
  exact congrArg (v55 (ix2 p q) + ·) (mm_apply _ _ p q)

/-- The binarization carried from one part of the body to the next (the second and the fourth run of columns). -/
theorem pay5_apply (v26 : Vec Ideal S1024x512 .f32) (p : Fin 1024) (k : Fin 512) :
    k0_pay5 (F := Ideal) v26 (ix2 p k) = sg (v26 (ix2 p k)) := rfl

theorem pay8_apply (v64 : Vec Ideal S1024x512 .f32) (p : Fin 1024) (k : Fin 512) :
    k0_pay8 (F := Ideal) v64 (ix2 p k) = sg (v64 (ix2 p k)) := rfl

/-- An accumulating step over columns binarized before it (the second and the fourth). -/
theorem pay6_apply (v32 : FVec Ideal S1024x512 .bf16) (v34 : Vec Ideal S512x512 .bf16) (v36 : Vec Ideal S1024x512 .f32)
    (p : Fin 1024) (q : Fin 512) :
    k0_pay6 (F := Ideal) v32 v34 v36 (ix2 p q) = v36 (ix2 p q) + ∑ k : Fin 512, v32 (ix2 p k) * v34 (ix2 k q) := by
  unfold k0_pay6
  simp only [shapeCast_self]
  exact congrArg (v36 (ix2 p q) + ·) (mm_apply _ _ p q)

theorem pay1_apply (v69 : FVec Ideal S1024x512 .f32) (v72 : Vec Ideal S512x512 .bf16) (v74 : Vec Ideal S1024x512 .f32)
    (p : Fin 1024) (q : Fin 512) :
    k0_pay1 (F := Ideal) v69 v72 v74 (ix2 p q) = v74 (ix2 p q) + ∑ k : Fin 512, v69 (ix2 p k) * v72 (ix2 k q) := by
  unfold k0_pay1
  simp only [shapeCast_self]
  exact congrArg (v74 (ix2 p q) + ·) (mm_apply _ _ p q)

/-- The last store's payload: the accumulator times row 0 of the parameters, plus row 1, column by column. -/
theorem pay2_apply (v80 v82 : Vec Ideal S1x512 .f32) (v84 : Vec Ideal S1024x512 .f32) (p : Fin 1024) (q : Fin 512) :
    k0_pay2 (F := Ideal) v80 v82 v84 (ix2 p q) = v84 (ix2 p q) * v80 (ix2 (0 : Fin 1) q) + v82 (ix2 (0 : Fin 1) q) := by
  unfold k0_pay2
  simp only [shapeCast_self]
  show v84 (ix2 p q) * broadcastTo S1024x512 v80 _ (ix2 p q) + broadcastTo S1024x512 v82 _ (ix2 p q) = _
  rw [broadcastTo_1b_ab_apply, broadcastTo_1b_ab_apply]

/-- Columns `o … o + 511` of the input block, read at (p, k): column `o + k` of row `p`. -/
theorem ld_cols (x0 : Vec Ideal S1024x2048 .f32) (o : Nat) (inb : ∀ a, (![0, o] : Fin 2 → Nat) a + (![1024, 512] : Fin 2 → Nat) a ≤ S1024x2048.size a)
    (p : Fin 1024) (k : Fin 512) :
    View.ld x0 (Rect.unit ![0, o] ![1024, 512] inb) (ix2 p k)
      = x0 (ix2 p ⟨o + k.val, by have h : o + 512 ≤ 2048 := inb 1; omega⟩) := by
  show x0 _ = x0 _
  refine congrArg x0 (funext fun a => Fin.ext ?_)
  match a with
  | ⟨0, _⟩ => show 0 + 1 * p.val = p.val; omega
  | ⟨1, _⟩ => show o + 1 * k.val = o + k.val; omega

/-- Rows `o … o + 511` of the weight block, read at (k, q): row `o + k`, column `q`. -/
theorem ld_rows (x1 : Vec Ideal S2048x512 .bf16) (o : Nat) (inb : ∀ a, (![o, 0] : Fin 2 → Nat) a + (![512, 512] : Fin 2 → Nat) a ≤ S2048x512.size a)
    (k : Fin 512) (q : Fin 512) :
    View.ld x1 (Rect.unit ![o, 0] ![512, 512] inb) (ix2 k q)
      = x1 (ix2 ⟨o + k.val, by have h : o + 512 ≤ 2048 := inb 0; omega⟩ q) := by
  show x1 _ = x1 _
  refine congrArg x1 (funext fun a => Fin.ext ?_)
  match a with
  | ⟨0, _⟩ => show o + 1 * k.val = o + k.val; omega
  | ⟨1, _⟩ => show 0 + 1 * q.val = q.val; omega

/-- Row 0 of the parameter block, and row 1. -/
theorem ld_par0 (x2 : Vec Ideal S2x512 .f32) (inb : ∀ a, (![0, 0] : Fin 2 → Nat) a + (![1, 512] : Fin 2 → Nat) a ≤ S2x512.size a)
    (q : Fin 512) : View.ld x2 (Rect.unit ![0, 0] ![1, 512] inb) (ix2 (0 : Fin 1) q) = x2 (ix2 (0 : Fin 2) q) := by
  show x2 _ = x2 _
  refine congrArg x2 (funext fun a => Fin.ext ?_)
  match a with
  | ⟨0, _⟩ => rfl
  | ⟨1, _⟩ => show 0 + 1 * q.val = q.val; omega

theorem ld_par1 (x2 : Vec Ideal S2x512 .f32) (inb : ∀ a, (![1, 0] : Fin 2 → Nat) a + (![1, 512] : Fin 2 → Nat) a ≤ S2x512.size a)
    (q : Fin 512) : View.ld x2 (Rect.unit ![1, 0] ![1, 512] inb) (ix2 (0 : Fin 1) q) = x2 (ix2 (1 : Fin 2) q) := by
  show x2 _ = x2 _
  refine congrArg x2 (funext fun a => Fin.ext ?_)
  match a with
  | ⟨0, _⟩ => rfl
  | ⟨1, _⟩ => show 0 + 1 * q.val = q.val; omega

/-- One run of 512 columns against the matching 512 rows, as a sum over the run's positions in the whole axis. -/
theorem run_eq (x0 : Vec Ideal S1024x2048 .f32) (x1 : Vec Ideal S2048x512 .bf16) (p : Fin 1024) (q : Fin 512) (o : Nat)
    {inb0 : ∀ a, (![0, o] : Fin 2 → Nat) a + (![1024, 512] : Fin 2 → Nat) a ≤ S1024x2048.size a}
    {inb1 : ∀ a, (![o, 0] : Fin 2 → Nat) a + (![512, 512] : Fin 2 → Nat) a ≤ S2048x512.size a} :
    ∑ k : Fin 512, sg (View.ld x0 (Rect.unit ![0, o] ![1024, 512] inb0) (ix2 p k))
        * View.ld x1 (Rect.unit ![o, 0] ![512, 512] inb1) (ix2 k q)
      = ∑ k : Fin 512, sg (x0 (ix2 p ⟨o + k.val, by have h : o + 512 ≤ 2048 := inb0 1; omega⟩))
          * x1 (ix2 ⟨o + k.val, by have h : o + 512 ≤ 2048 := inb0 1; omega⟩ q) :=
  Finset.sum_congr rfl fun k _ => by rw [ld_cols, ld_rows]

/-- THE BLOCK, entry by entry: the inner product of the binarized row `p` of the input block with column `q` of the
    weight block, times row 0 of the parameters, plus row 1. -/
theorem body_apply (x0 : Vec Ideal S1024x2048 .f32) (x1 : Vec Ideal S2048x512 .bf16) (x2 : Vec Ideal S2x512 .f32)
    (p : Fin 1024) (q : Fin 512) :
    k0_pay2 (F := Ideal) (View.ld x2 (Rect.unit ![0, 0] ![1, 512] inb_S2x512_S1x512_0_0))
        (View.ld x2 (Rect.unit ![1, 0] ![1, 512] inb_S2x512_S1x512_1_0)) (acc x0 x1) (ix2 p q)
      = (∑ k : Fin 2048, sg (x0 (ix2 p k)) * x1 (ix2 k q)) * x2 (ix2 (0 : Fin 2) q) + x2 (ix2 (1 : Fin 2) q) := by
  rw [pay2_apply]
  unfold acc
  rw [pay1_apply, pay7_apply, pay6_apply, pay4_apply, pay3_apply]
  simp only [pay8_apply, pay5_apply]
  rw [ld_par0, ld_par1, run_eq x0 x1 p q 0, run_eq x0 x1 p q 512, run_eq x0 x1 p q 1024, run_eq x0 x1 p q 1536]
  simp only [Nat.zero_add]
  rw [sum_four_runs (fun k : Fin 2048 => sg (x0 (ix2 p k)) * x1 (ix2 k q))]

end Cert.KernelIdeal.Body

end
-- ==== Proof.BinHost.lean ====
/-
  What the region finds in the two arrays the host prepares for it.

  Before the launch the host binarizes the weight once (the 2048×512 array of ±1 the kernel keeps resident) and folds
  the bias and the normalization into a 2×512 parameter array: row 0 is the scale s j = (v j + ε)^(-1/2), row 1 the
  shift (b j - μ j) · s j + β j.
-/
import proofs.«111143_j84585085927956_2_alg».proof.Proof.Gen.KernelIdeal.Frame
import Idealize.ShloMosaic.Lib.StableHlo.Run
import Idealize.ShloMosaic.Lib.Pipeline.Value
import Idealize.ShloMosaic.Lib.ValueIdx
import proofs.«111143_j84585085927956_2_alg».proof.Proof.BinSpec

noncomputable section

open Idealize.ShloMosaic Idealize.ShloMosaic.TcCoe Idealize.SL.Sem

namespace Cert.KernelIdeal.HostSide

open Cert.KernelIdeal Cert.KernelIdeal.Gen Idealize.ShloMosaic.ValueIdx Cert.BinDense Idealize.ShloMosaic.StableHlo

variable (m : (ℓ : Loc nD τ sig) → Buf (Elt Ideal) ℓ)

/-- The six argument arrays as launched, each at its literal index type: the input, the weight, the bias, the shift,
    the moving mean and the moving variance. -/
abbrev aX (c : Dev nD) : S32768x2048.Idx → EReal := m ((c : Thread nD τ).loc main_arg0)
abbrev aW (c : Dev nD) : S2048x512.Idx → EReal := m ((c : Thread nD τ).loc main_arg1)
abbrev aB (c : Dev nD) : S512.Idx → EReal := m ((c : Thread nD τ).loc main_arg2)
abbrev aBeta (c : Dev nD) : S512.Idx → EReal := m ((c : Thread nD τ).loc main_arg3)
abbrev aMu (c : Dev nD) : S512.Idx → EReal := m ((c : Thread nD τ).loc main_arg4)
abbrev aVar (c : Dev nD) : S512.Idx → EReal := m ((c : Thread nD τ).loc main_arg5)

/-- The scale vector as the host computes it from the variance. -/
def hscale (v : FVec Ideal S512 .f32) : FVec Ideal S512 .f32 :=
  Host.rsqrt (addf v (broadcastInDim S512 ![] bcast_S_S512 (constant (F := Ideal) S_ .f32 0x3A83126F#32)))

/-- The shift vector as the host computes it. -/
def hshift (b β μ v : FVec Ideal S512 .f32) : FVec Ideal S512 .f32 :=
  addf (mulf (subf b μ) (hscale v)) β

/-- The weight array the region finds: the host's binarization of the weight argument. -/
theorem wq_eq (c : Dev nD) : (V m c main_v3 : S2048x512.Idx → Ideal .bf16) =
    truncf .bf16 (select (cmpf .oge (m ((c : Thread nD τ).loc main_arg1))
        (broadcastInDim S2048x512 ![] bcast_S_S2048x512 (constant (F := Ideal) S_ .f32 0x00000000#32)))
      (broadcastInDim S2048x512 ![] bcast_S_S2048x512 (constant (F := Ideal) S_ .f32 0x3F800000#32))
      (broadcastInDim S2048x512 ![] bcast_S_S2048x512 (constant (F := Ideal) S_ .f32 0xBF800000#32))) bitsLt_bf16_f32 := by
  dsimp only [Gen.V]
  simp only [Gen.hostOps0, Gen.hostOps0_1, Gen.hostOps0_2, List.flatten_cons, List.flatten_nil, List.append_nil,
    List.cons_append, List.nil_append]
  after_results
  rfl

/-- The parameter array the region finds: the scale over the shift. -/
theorem sb_eq (c : Dev nD) : (V m c main_v12 : S2x512.Idx → Ideal .f32) =
    concatenate S2x512 0
      [⟨S1x512, broadcastInDim S1x512 ![1] bcast_S512_S1x512_1 (hscale (m ((c : Thread nD τ).loc main_arg5)))⟩,
       ⟨S1x512, broadcastInDim S1x512 ![1] bcast_S512_S1x512_1
          (hshift (m ((c : Thread nD τ).loc main_arg2)) (m ((c : Thread nD τ).loc main_arg3))
            (m ((c : Thread nD τ).loc main_arg4)) (m ((c : Thread nD τ).loc main_arg5)))⟩]
      concatenates_S1x512_S1x512_S2x512_d0 := by
  dsimp only [Gen.V]
  simp only [Gen.hostOps0, Gen.hostOps0_1, Gen.hostOps0_2, List.flatten_cons, List.flatten_nil, List.append_nil,
    List.cons_append, List.nil_append]
  after_results
  rfl

/-- A scalar constant broadcast over the weight's shape reads its pattern's value everywhere. -/
theorem bcastW_apply (w : BitVec 32) (i : S2048x512.Idx) :
    broadcastInDim (s := S_) S2048x512 ![] bcast_S_S2048x512 (constant (F := Ideal) S_ .f32 w) i = Ideal.ofBits .f32 w :=
  broadcastInDim_apply _ bcast_S_S2048x512 _ i ix0 (fun a => a.elim0)

/-- … and over a per-column vector's shape. -/
theorem bcastV_apply (w : BitVec 32) (i : S512.Idx) :
    broadcastInDim (s := S_) S512 ![] bcast_S_S512 (constant (F := Ideal) S_ .f32 w) i = Ideal.ofBits .f32 w :=
  broadcastInDim_apply _ bcast_S_S512 _ i ix0 (fun a => a.elim0)

/-- Entry (k, q) of the weight array the region finds is the binarized entry of the weight argument. -/
theorem wq_apply (c : Dev nD) (k : Fin 2048) (q : Fin 512) :
    (V m c main_v3 : S2048x512.Idx → Ideal .bf16) (ix2 k q) = sg (aW m c (ix2 k q)) := by
  rw [wq_eq]
  show Scalar.select (FloatOps.cmpf .oge _ (broadcastInDim (s := S_) S2048x512 ![] bcast_S_S2048x512 _ (ix2 k q)))
    (broadcastInDim (s := S_) S2048x512 ![] bcast_S_S2048x512 _ (ix2 k q))
    (broadcastInDim (s := S_) S2048x512 ![] bcast_S_S2048x512 _ (ix2 k q)) = _
  rw [bcastW_apply, bcastW_apply, bcastW_apply]
  rfl

/-- The host's scale vector at column `q` is the specification's scale. -/
theorem hscale_apply (v : FVec Ideal S512 .f32) (q : Fin 512) : hscale v (ix1 q) = scale v q := by
  unfold hscale scale eps
  show Ideal.rsqrt (v (ix1 q) + broadcastInDim (s := S_) S512 ![] bcast_S_S512 _ (ix1 q)) = _
  rw [bcastV_apply]

/-- A per-column vector laid as a 1×512 row reads its column. -/
theorem row_apply (x : FVec Ideal S512 .f32) (q : Fin 512) :
    broadcastInDim S1x512 ![1] bcast_S512_S1x512_1 x (ix2 (0 : Fin 1) q) = x (ix1 q) :=
  broadcastInDim_apply _ bcast_S512_S1x512_1 x (ix2 (0 : Fin 1) q) (ix1 q) (fun a => match a with
    | ⟨0, _⟩ => by show q.val = if (512 : Nat) = 1 then 0 else q.val; rw [if_neg (by decide)])

/-- Row 0 of the parameter array is the scale. -/
theorem sb_row0 (c : Dev nD) (q : Fin 512) :
    (V m c main_v12 : S2x512.Idx → Ideal .f32) (ix2 (0 : Fin 2) q) = scale (aVar m c) q := by
  rw [sb_eq]
  refine (concatenate_pair_apply_left (s₁ := S1x512) (s₂ := S1x512) (0 : Fin 2) _ _ concatenates_S1x512_S1x512_S2x512_d0 (ix2 (0 : Fin 2) q) rfl
    (ix2 (0 : Fin 1) q) (fun b => match b with | ⟨0, _⟩ => rfl | ⟨1, _⟩ => rfl)).trans ?_
  rw [row_apply, hscale_apply]

/-- Row 1 of the parameter array is the shift. -/
theorem sb_row1 (c : Dev nD) (q : Fin 512) :
    (V m c main_v12 : S2x512.Idx → Ideal .f32) (ix2 (1 : Fin 2) q)
      = (aB m c (ix1 q) - aMu m c (ix1 q)) * scale (aVar m c) q + aBeta m c (ix1 q) := by
  rw [sb_eq]
  refine (concatenate_pair_apply_right (s₁ := S1x512) (s₂ := S1x512) (0 : Fin 2) _ _ concatenates_S1x512_S1x512_S2x512_d0 (ix2 (1 : Fin 2) q) rfl rfl
    (ix2 (0 : Fin 1) q) (fun b hb => match b, hb with | ⟨0, _⟩, hb => absurd rfl hb | ⟨1, _⟩, _ => rfl) rfl).trans ?_
  rw [row_apply]
  show (_ - _) * hscale _ (ix1 q) + _ = _
  rw [hscale_apply]

end Cert.KernelIdeal.HostSide

end
-- ==== Proof.BinKernel.lean ====
/-
  From the grid points' blocks to the whole result array.

  Grid point t works on rows 1024·t … 1024·t + 1023: its input block is those rows of the input, its weight and
  parameter blocks are the whole prepared arrays, and it writes back those rows of the result. Entry (p, q) of what it
  writes is the folded arrangement of the layer at row 1024·t + p, column q; the 32 blocks tile the 32768 rows, so the
  result array ends holding the folded arrangement everywhere.
-/
import proofs.«111143_j84585085927956_2_alg».proof.Proof.Gen.KernelIdeal.Value
import proofs.«111143_j84585085927956_2_alg».proof.Proof.BinBody
import proofs.«111143_j84585085927956_2_alg».proof.Proof.BinHost

noncomputable section

open scoped BigOperators
open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx Cert.BinDense

variable (m : (ℓ : Loc nD τ sig) → Buf (Elt Ideal) ℓ) (ρ : Dev nD → PrngReg)

/-- The layer in its folded arrangement, of the six argument arrays as launched. -/
def G (c : Dev nD) : Buf (Elt Ideal) ((c : Thread nD τ).loc main_v13) :=
  folded (HostSide.aX m c) (HostSide.aW m c) (HostSide.aB m c) (HostSide.aBeta m c) (HostSide.aMu m c) (HostSide.aVar m c)

/-- The printed index maps over the grid: the input and the result move one block of rows per point, the weight and the
    parameters stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s block is row `1024·t + p` of the array. -/
def row (t : Fin cfg0.N) (p : Fin 1024) : Fin 32768 :=
  ⟨1024 * t.val + p.val, by have := t.isLt; have hN : cfg0.N = 32 := N_0; omega⟩

/-- The input block at point `t` is rows `1024·t …` of the input argument. -/
theorem x_read (c : Dev nD) (t : Fin cfg0.N) (p : Fin 1024) (k : Fin 2048) :
    (iblk m c 0 t : Vec Ideal S1024x2048 .f32) (ix2 p k)
      = HostSide.aX m c (ix2 (row t p) k) := by
  obtain ⟨e0, e1, -⟩ := idx_facts t
  unfold iblk
  rw [View.read_apply]
  refine (congrFun (V_main_arg0 m c) _).trans ?_
  refine congrArg _ (funext fun a => Fin.ext ?_)
  match a with
  | ⟨0, _⟩ => show win0_0.index t (0 : Fin 2) * 1024 + 1 * p.val = 1024 * t.val + p.val; rw [e0]; omega
  | ⟨1, _⟩ => show win0_0.index t (1 : Fin 2) * 2048 + 1 * k.val = k.val; rw [e1]; omega

/-- The weight block at every point is the whole binarized weight. -/
theorem w_read (c : Dev nD) (t : Fin cfg0.N) (k : Fin 2048) (q : Fin 512) :
    (iblk m c 1 t : Vec Ideal S2048x512 .bf16) (ix2 k q) = sg (HostSide.aW m c (ix2 k q)) := by
  obtain ⟨-, -, e0, e1, -⟩ := idx_facts t
  unfold iblk
  rw [View.read_apply]
  refine Eq.trans ?_ (HostSide.wq_apply m c k q)
  show V m c main_v3 _ = V m c main_v3 _
  refine congrArg _ (funext fun a => Fin.ext ?_)
  match a with
  | ⟨0, _⟩ => show win0_1.index t (0 : Fin 2) * 2048 + 1 * k.val = k.val; rw [e0]; omega
  | ⟨1, _⟩ => show win0_1.index t (1 : Fin 2) * 512 + 1 * q.val = q.val; rw [e1]; omega

/-- The parameter block at every point is the whole parameter array: row `r`, column `q`. -/
theorem s_read (c : Dev nD) (t : Fin cfg0.N) (r : Fin 2) (q : Fin 512) :
    (iblk m c 2 t : Vec Ideal S2x512 .f32) (ix2 r q) = (V m c main_v12 : S2x512.Idx → Ideal .f32) (ix2 r q) := by
  obtain ⟨-, -, -, -, e0, e1, -⟩ := idx_facts t
  unfold iblk
  rw [View.read_apply]
  show V m c main_v12 _ = V m c main_v12 _
  refine congrArg _ (funext fun a => Fin.ext ?_)
  match a with
  | ⟨0, _⟩ => show win0_2.index t (0 : Fin 2) * 2 + 1 * r.val = r.val; rw [e0]; omega
  | ⟨1, _⟩ => show win0_2.index t (1 : Fin 2) * 512 + 1 * q.val = q.val; rw [e1]; omega

/-- Entry (p, q) of point `t`'s result block sits at (1024·t + p, q) of the result array. -/
theorem o_emb (t : Fin cfg0.N) (p : Fin 1024) (q : Fin 512) :
    ((cfg0.win 3).blk t).view.emb (ix2 p q) = ix2 (row t p) q := by
  obtain ⟨-, -, -, -, -, -, e0, e1⟩ := idx_facts t
  funext a
  apply Fin.ext
  match a with
  | ⟨0, _⟩ => show win0_3.index t (0 : Fin 2) * 1024 + 1 * p.val = 1024 * t.val + p.val; rw [e0]; omega
  | ⟨1, _⟩ => show win0_3.index t (1 : Fin 2) * 512 + 1 * q.val = q.val; rw [e1]; omega

/-- WHAT POINT `t` WRITES BACK is block `t` of the folded arrangement of the argument arrays. -/
theorem flushed_eq (c : Dev nD) (t : Fin cfg0.N) :
    (dats m 0 c).flushed 3 t = ((cfg0.win 3).blk t).view.read (Elt Ideal) (G m c) := by
  rw [Value.flushed3_A m c t, Body.out_A]
  have key : ∀ y : S1024x512.Idx,
      k0_pay2 (F := Ideal) (View.ld (iblk m c 2 t) (Rect.unit ![0, 0] ![1, 512] inb_S2x512_S1x512_0_0))
          (View.ld (iblk m c 2 t) (Rect.unit ![1, 0] ![1, 512] inb_S2x512_S1x512_1_0))
          (Body.acc (iblk m c 0 t) (iblk m c 1 t)) y
        = G m c (((cfg0.win 3).blk t).view.emb y) := fun y => by
    obtain ⟨p, q, rfl⟩ : ∃ (p : Fin 1024) (q : Fin 512), y = ix2 p q := ⟨y 0, y 1, eq_ix2 y⟩
    refine (Body.body_apply (iblk m c 0 t) (iblk m c 1 t) (iblk m c 2 t) p q).trans ?_
    rw [o_emb t p q, s_read m c t, s_read m c t, HostSide.sb_row0, HostSide.sb_row1]
    simp only [x_read m c t p, w_read m c t]
    rfl
  exact funext key

/-- An index of the result array is in point `t`'s block iff each coordinate is in the block's range on its axis. -/
theorem mem_blk (t : Fin cfg0.N) (i : S32768x512.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v13).slice (win0_3.rect t)).set ↔ _
  rw [View.set_slice_whole, Rect.mem_set_unit]
  exact Iff.rfl

/-- Every entry of the result array is in the block of the point that owns its row: point `row / 1024`. -/
theorem cover (i : S32768x512.Idx) :
    ∃ t : Fin cfg0.N, (cfg0.win 3).flush t = true ∧ i ∈ ((cfg0.win 3).blk t).view.set := by
  have hN : cfg0.N = 32 := N_0
  have h0 : (i 0).val < 32768 := (i 0).isLt
  have h1 : (i 1).val < 512 := (i 1).isLt
  have ht : (i 0).val / 1024 < cfg0.N := by omega
  refine ⟨⟨(i 0).val / 1024, ht⟩, flush0_3 _, ?_⟩
  rw [mem_blk]
  obtain ⟨-, -, -, -, -, -, e0, e1⟩ := idx_facts ⟨(i 0).val / 1024, ht⟩
  intro a
  match a with
  | ⟨0, _⟩ =>
    show win0_3.index ⟨(i 0).val / 1024, ht⟩ (0 : Fin 2) * 1024 ≤ (i 0).val
      ∧ (i 0).val < win0_3.index ⟨(i 0).val / 1024, ht⟩ (0 : Fin 2) * 1024 + 1024
    rw [e0]
    show (i 0).val / 1024 * 1024 ≤ (i 0).val ∧ (i 0).val < (i 0).val / 1024 * 1024 + 1024
    omega
  | ⟨1, _⟩ =>
    show win0_3.index ⟨(i 0).val / 1024, ht⟩ (1 : Fin 2) * 512 ≤ (i 1).val
      ∧ (i 1).val < win0_3.index ⟨(i 0).val / 1024, ht⟩ (1 : Fin 2) * 512 + 512
    rw [e1]
    omega

/-- THE RESULT ARRAY after the run: the folded arrangement of the layer. -/
theorem final (c : Dev nD) : (dats m 0 c).arrAt 3 cfg0.N = G m c :=
  (dats m 0 c).arrAt_eq_of_cover 3 (G m c) (fun t _ => flushed_eq m c t) cover

/-- The kernel's run, read: the result at the folded arrangement, the arguments unchanged. -/
theorem run : θ_run defs (onTc (τ := τ) (main (F := Ideal))) ⟨m, fun _ => 0, ρ⟩ fun r => ∀ c : Dev nD,
      r.2.mem ((c : Thread nD τ).loc main_v13) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Blocks

end
-- ==== Proof.BinRef.lean ====
/-
  The reference computes the unfolded arrangement of the layer: it binarizes the input and the weight, takes their
  2048-term inner products, adds the bias, subtracts the moving mean, multiplies by the scale and adds the shift, each as
  a whole-array operation with the per-column vectors broadcast along the rows.
-/
import proofs.«111143_j84585085927956_2_alg».proof.Proof.Gen.ReferenceIdeal.Read
import proofs.«111143_j84585085927956_2_alg».proof.Proof.BinSpec

noncomputable section

open scoped BigOperators
open Idealize.ShloMosaic Idealize.ShloMosaic.TcCoe Idealize.SL.Sem

namespace Cert.ReferenceIdeal.RefValue

open Cert.ReferenceIdeal Cert.ReferenceIdeal.Gen Cert.ReferenceIdeal.Read Idealize.ShloMosaic.ValueIdx Cert.BinDense

/-- The reference's binarized input at an index. -/
theorem sgX (x0 : (⟨S32768x2048, .f32⟩ : BufTy).Contents (Elt Ideal)) (i : S32768x2048.Idx) :
    val_main_v3 (F := Ideal) x0 i = sg (x0 i) := by
  rw [val_main_v3_apply, val_main_v2_apply, val_main_v1_apply, val_main_v0_apply, val_main_call0_v0_apply,
    val_main_call0_v1_apply]
  rfl

/-- The reference's binarized weight at an index. -/
theorem sgW (x1 : (⟨S2048x512, .f32⟩ : BufTy).Contents (Elt Ideal)) (i : S2048x512.Idx) :
    val_main_v7 (F := Ideal) x1 i = sg (x1 i) := by
  rw [val_main_v7_apply, val_main_v6_apply, val_main_v5_apply, val_main_v4_apply, val_main_call1_v0_apply,
    val_main_call1_v1_apply]
  rfl

/-- The inner product's operand indices at result entry (r, j) and contracted coordinate k: (r, k) and (k, j). -/
theorem lidx_eq (r : Fin 32768) (j : Fin 512) (k : Fin 2048) : lidx_main_v8 (ix2 r j) k = ix2 r k :=
  funext fun a => Fin.ext (by match a with | ⟨0, _⟩ => rfl | ⟨1, _⟩ => rfl)
theorem ridx_eq (r : Fin 32768) (j : Fin 512) (k : Fin 2048) : ridx_main_v8 (ix2 r j) k = ix2 k j :=
  funext fun a => Fin.ext (by match a with | ⟨0, _⟩ => rfl | ⟨1, _⟩ => rfl)

/-- A per-column vector broadcast along the rows reads, at (r, j), its entry j — for each of the four broadcasts. -/
theorem idx_b (r : Fin 32768) (j : Fin 512) : idx_main_v9 (idx_main_v10 (ix2 r j)) = ix1 j :=
  funext fun a => Fin.ext (by match a with | ⟨0, _⟩ => rfl)
theorem idx_mu (r : Fin 32768) (j : Fin 512) : idx_main_v15 (idx_main_v16 (ix2 r j)) = ix1 j :=
  funext fun a => Fin.ext (by match a with | ⟨0, _⟩ => rfl)
theorem idx_s (r : Fin 32768) (j : Fin 512) : idx_main_v18 (idx_main_v19 (ix2 r j)) = ix1 j :=
  funext fun a => Fin.ext (by match a with | ⟨0, _⟩ => rfl)
theorem idx_beta (r : Fin 32768) (j : Fin 512) : idx_main_v21 (idx_main_v22 (ix2 r j)) = ix1 j :=
  funext fun a => Fin.ext (by match a with | ⟨0, _⟩ => rfl)

/-- THE REFERENCE's result is the unfolded arrangement, entry by entry. -/
theorem ref_eq (x0 : (⟨S32768x2048, .f32⟩ : BufTy).Contents (Elt Ideal)) (x1 : (⟨S2048x512, .f32⟩ : BufTy).Contents (Elt Ideal))
    (x2 x3 x4 x5 : (⟨S512, .f32⟩ : BufTy).Contents (Elt Ideal)) :
    val_main_v23 (F := Ideal) x0 x1 x2 x3 x4 x5 = unfolded x0 x1 x2 x3 x4 x5 := by
  funext i
  obtain ⟨r, j, rfl⟩ : ∃ (r : Fin 32768) (j : Fin 512), i = ix2 r j := ⟨i 0, i 1, eq_ix2 i⟩
  rw [val_main_v23_apply, val_main_v20_apply, val_main_v17_apply, val_main_v11_apply, val_main_v8_apply,
    val_main_v10_apply, val_main_v9_apply, val_main_v16_apply, val_main_v15_apply, val_main_v19_apply,
    val_main_v18_apply, val_main_v14_apply, val_main_v13_apply, val_main_v12_apply, val_main_cst_5_apply,
    val_main_v22_apply, val_main_v21_apply]
  simp only [sgX, sgW, lidx_eq, ridx_eq, idx_b, idx_mu, idx_s, idx_beta]
  rfl

end Cert.ReferenceIdeal.RefValue

end
-- ==== Proof.BinPre.lean ====
/-
  The precondition, read back: every entry of the bias, the shift, the moving mean and the moving variance is a real
  number, and every entry of the moving variance is at least zero.

  The precondition is a conjunction of `all`s: for each argument, "|x| < +∞ at every entry", and for the variance also
  "v ≥ 0 at every entry". On the extended reals |x| = max x (-x) is below +∞ exactly when x is neither infinity.
-/
import proofs.«111143_j84585085927956_2_alg».proof.Pre_finite_inputs
import Idealize.ShloMosaic.PureOps.Ideal.Laws
import Idealize.ShloMosaic.Lib.ReduceAll
import Idealize.ShloMosaic.Lib.Pipeline.Value
import Idealize.ShloMosaic.Lib.ValueIdx
import proofs.«111143_j84585085927956_2_alg».proof.Proof.LibFinite

noncomputable section

open Idealize.ShloMosaic

namespace Cert.Pre_finite_inputs.Decode

open Cert.Pre_finite_inputs Idealize.ShloMosaic.ValueIdx Cert.LibFinite

instance : Subsingleton S_.Idx := ⟨fun a b => funext fun d => d.elim0⟩

/-- The pattern of +∞. -/
theorem ofBits_inf : Ideal.ofBits .f32 0x7F800000#32 = (⊤ : EReal) := by simp [Ideal.ofBits, Ideal.ieee]

/-- An extended real whose absolute value is below +∞ is a real number. -/
theorem isFin_of_abs_lt (x : EReal) (h : Ideal.cmp .olt (max x (-x)) (Ideal.ofBits .f32 0x7F800000#32) = 1#1) : IsFin x := by
  rw [ofBits_inf] at h
  induction x using EReal.rec with
  | bot => simp [Ideal.cmp] at h
  | top => simp [Ideal.cmp] at h
  | coe r => exact ⟨r, rfl⟩

/-- An extended real that compares at least the pattern of +0.0 is at least zero. -/
theorem nonneg_of_oge (x : EReal) (h : Ideal.cmp .oge x (Ideal.ofBits .f32 0x00000000#32) = 1#1) : 0 ≤ x := by
  rw [Ideal.ofBits_zero_f32] at h
  have h' : BitVec.ofBool (decide (0 ≤ x)) = 1#1 := h
  by_contra hn
  rw [decide_eq_false hn] at h'
  exact absurd h' (by decide)

variable [Facts]
open Facts

/-- A scalar constant broadcast over a per-column vector's shape reads its pattern's value everywhere. -/
theorem bcast_apply (w : BitVec 32) (i : S512.Idx) :
    broadcastInDim (s := S_) S512 ![] bcast_S_S512 (constant (F := Ideal) S_ .f32 w) i = Ideal.ofBits .f32 w :=
  broadcastInDim_apply _ bcast_S_S512 _ i ix0 (fun a => a.elim0)

/-- "|x| < +∞ at every entry" of a per-column vector makes every entry a real number. -/
theorem isFin_of_all (x : FVec Ideal S512 .f32)
    (h : Host.reduce IntOp.andi (cmpf .olt (Host.absf x) (broadcastInDim (s := S_) S512 ![] bcast_S_S512 (constant (F := Ideal) S_ .f32 0x7F800000#32)))
      (constantI S_ 1 1#1) reducesTo_S512_S_d0 h_S_ ix0 = 1#1) (i : S512.Idx) : IsFin (x i) := by
  have e := Host.reduce_andi_all _ _ _ _ ix0 h i
  have e' : Ideal.cmp .olt (max (x i) (-(x i)))
      (broadcastInDim (s := S_) S512 ![] bcast_S_S512 (constant (F := Ideal) S_ .f32 0x7F800000#32) i) = 1#1 := e
  rw [bcast_apply] at e'
  exact isFin_of_abs_lt _ e'

/-- "v ≥ 0 at every entry" makes every entry at least zero. -/
theorem nonneg_of_all (x : FVec Ideal S512 .f32)
    (h : Host.reduce IntOp.andi (cmpf .oge x (broadcastInDim (s := S_) S512 ![] bcast_S_S512 (constant (F := Ideal) S_ .f32 0x00000000#32)))
      (constantI S_ 1 1#1) reducesTo_S512_S_d0 h_S_ ix0 = 1#1) (i : S512.Idx) : 0 ≤ x i := by
  have e := Host.reduce_andi_all _ _ _ _ ix0 h i
  have e' : Ideal.cmp .oge (x i)
      (broadcastInDim (s := S_) S512 ![] bcast_S_S512 (constant (F := Ideal) S_ .f32 0x00000000#32) i) = 1#1 := e
  rw [bcast_apply] at e'
  exact nonneg_of_oge _ e'

/-- THE PRECONDITION, read back for the four per-column vectors. -/
theorem decode (a0 : FVec Ideal S32768x2048 .f32) (a1 : FVec Ideal S2048x512 .f32) (a2 a3 a4 a5 : FVec Ideal S512 .f32)
    (h : fn (F := Ideal) a0 a1 a2 a3 a4 a5 = fun _ => 1#1) :
    (∀ j, IsFin (a2 j)) ∧ (∀ j, IsFin (a3 j)) ∧ (∀ j, IsFin (a4 j)) ∧ (∀ j, IsFin (a5 j)) ∧ ∀ j, 0 ≤ a5 j := by
  have h0 := congrFun h ix0
  dsimp only [fn, fn_part1] at h0
  obtain ⟨h28, h31⟩ := IntOp.andi_eq_one.1 h0
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  exact ⟨isFin_of_all a2 h12, isFin_of_all a3 h17, isFin_of_all a4 h22, isFin_of_all a5 h27, nonneg_of_all a5 h31⟩

end Cert.Pre_finite_inputs.Decode

end
-- ==== Proof.lean ====
/-
  A binarized dense layer followed by a batch normalization at inference: the tiled kernel against its plain reference,
  over the extended reals.

  The kernel binarizes 1024 rows of the input at a time, multiplies them with the binarized weight in four runs of 512
  contracted coordinates accumulated in a scratch block, and applies one affine map per column whose scale
  s = (v + ε)^(-1/2) and shift (b - μ) · s + β the host folded beforehand. The reference adds the bias to the whole
  2048-term inner product, subtracts the mean, multiplies by s and adds β. The two agree where the per-column
  parameters are real numbers and the variance is non-negative: then v + ε is a positive real, s is a real, the inner
  product is a finite sum of ±1, and the folded affine map is the unfolded one by distributivity. Nothing was rewritten
  between the kernel and its idealization, and the three programs' runs leave their arguments as they found them.
-/
import proofs.«111143_j84585085927956_2_alg».proof.Defs
import proofs.«111143_j84585085927956_2_alg».proof.Proof.Gen.Kernel
import proofs.«111143_j84585085927956_2_alg».proof.Proof.Gen.Kernel.Skeleton
import proofs.«111143_j84585085927956_2_alg».proof.Proof.Gen.Kernel.Launch
import proofs.«111143_j84585085927956_2_alg».proof.Proof.Gen.Kernel.Points
import proofs.«111143_j84585085927956_2_alg».proof.Proof.Gen.Kernel.Frame
import proofs.«111143_j84585085927956_2_alg».proof.Proof.Gen.KernelIdeal
import proofs.«111143_j84585085927956_2_alg».proof.Proof.Gen.KernelIdeal.Skeleton
import proofs.«111143_j84585085927956_2_alg».proof.Proof.Gen.KernelIdeal.Launch
import proofs.«111143_j84585085927956_2_alg».proof.Proof.Gen.KernelIdeal.Points
import proofs.«111143_j84585085927956_2_alg».proof.Proof.Gen.KernelIdeal.Frame
import proofs.«111143_j84585085927956_2_alg».proof.Proof.Gen.ReferenceIdeal
import proofs.«111143_j84585085927956_2_alg».proof.Proof.Gen.Pre_finite_inputs
import proofs.«111143_j84585085927956_2_alg».proof.Proof.Gen.KernelIdeal.Value
import proofs.«111143_j84585085927956_2_alg».proof.Proof.Gen.ReferenceIdeal.Run
import proofs.«111143_j84585085927956_2_alg».proof.Proof.Gen.ReferenceIdeal.Read
import proofs.«111143_j84585085927956_2_alg».proof.Proof.BinKernel
import proofs.«111143_j84585085927956_2_alg».proof.Proof.BinRef
import proofs.«111143_j84585085927956_2_alg».proof.Proof.BinPre
import Idealize.ShloMosaic.Adequacy
import Idealize.ShloMosaic.Init

noncomputable section

namespace Cert.Proof

open Idealize.ShloMosaic Idealize.SL.Sem Cert.Kernel

/-- The kernel as printed runs and leaves its arguments unchanged. -/
theorem frame_k : Cert.frame_Kernel := fun m ρ _ => Cert.Kernel.Gen.frame m ρ

/-- So does its reading at the extended reals. -/
theorem frame_ki : Cert.frame_KernelIdeal := fun m ρ _ => Cert.KernelIdeal.Gen.frame m ρ

/-- The reference's run, with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- At the extended reals the kernel's result array ends at the folded arrangement of the layer and the reference's at
    the unfolded one, of arguments that agree; under the precondition the two arrangements are one function. -/
theorem algebraic : Cert.algebraic_KernelIdeal_ReferenceIdeal := by
  intro m ρ m' ρ' hpre hagree
  refine ⟨fun c => Cert.KernelIdeal.Blocks.G m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.ref_eq,
    (hagree c).1, (hagree c).2.1, (hagree c).2.2.1, (hagree c).2.2.2.1, (hagree c).2.2.2.2.1, (hagree c).2.2.2.2.2]
  obtain ⟨hb, hβ, hμ, hv, h0⟩ := Cert.Pre_finite_inputs.Decode.decode _ _ _ _ _ _ (hpre c)
  exact (Cert.BinDense.folded_eq_unfolded _ _ _ _ _ _ hb hβ hμ hv h0).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
